-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x300x512 : Shape := ⟨3, ![32, 300, 512]⟩
abbrev S32x1024x512 : Shape := ⟨3, ![32, 1024, 512]⟩
abbrev S512x512x512 : Shape := ⟨3, ![512, 512, 512]⟩
abbrev S512 : Shape := ⟨1, ![512]⟩
abbrev S_ : Shape := ⟨0, ![]⟩

class Facts : Prop where
  bcast_S_S32x300x512 : S_.BroadcastsInDim S32x300x512 (![] : Fin 0 → Fin S32x300x512.rank)
  reducesTo_S32x300x512_S_d0_1_2 : S32x300x512.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_
  bcast_S_S512x512x512 : S_.BroadcastsInDim S512x512x512 (![] : Fin 0 → Fin S512x512x512.rank)
  reducesTo_S512x512x512_S_d0_1_2 : S512x512x512.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S32x300x512 .f32) (main_arg1 : FVec F S32x1024x512 .f32) (main_arg2 : FVec F S512x512x512 .f32) (main_arg3 : FVec F S512 .f32) (main_arg4 : FVec F S512 .f32) (main_arg5 : FVec F S512 .f32) : IVec S_ 1 :=
  let main_v0 : FVec F S32x300x512 .f32 := Host.absf main_arg0
  let main_cst : FVec F S_ .f32 := constant S_ .f32 0x7F800000#32
  let main_v1 : FVec F S32x300x512 .f32 := broadcastInDim S32x300x512 ![] bcast_S_S32x300x512 main_cst
  let main_v2 : IVec S32x300x512 1 := cmpf .olt main_v0 main_v1
  let main_c : IVec S_ 1 := constantI S_ 1 1#1
  let main_v3 : IVec S_ 1 := (fun x v => Host.reduce IntOp.andi x v reducesTo_S32x300x512_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S512x512x512 .f32 := Host.absf main_arg2
  let main_cst_2 : FVec F S_ .f32 := constant S_ .f32 0x7F800000#32
  let main_v10 : FVec F S512x512x512 .f32 := broadcastInDim S512x512x512 ![] bcast_S_S512x512x512 main_cst_2
  let main_v11 : IVec S512x512x512 1 := cmpf .olt main_v9 main_v10
  let main_c_3 : IVec S_ 1 := constantI S_ 1 1#1
  let main_v12 : IVec S_ 1 := (fun x v => Host.reduce IntOp.andi x v reducesTo_S512x512x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x300x512 : Shape := ⟨3, ![32, 300, 512]⟩
abbrev S32x1024x512 : Shape := ⟨3, ![32, 1024, 512]⟩
abbrev S512x512x512 : Shape := ⟨3, ![512, 512, 512]⟩
abbrev S512 : Shape := ⟨1, ![512]⟩
abbrev S_ : Shape := ⟨0, ![]⟩
abbrev S32x512 : Shape := ⟨2, ![32, 512]⟩
abbrev S262144x512 : Shape := ⟨2, ![262144, 512]⟩
abbrev S32x262144 : Shape := ⟨2, ![32, 262144]⟩
abbrev S4096x512 : Shape := ⟨2, ![4096, 512]⟩
abbrev S32x4096 : Shape := ⟨2, ![32, 4096]⟩
abbrev S32x512x512 : Shape := ⟨3, ![32, 512, 512]⟩
abbrev S1x512 : Shape := ⟨2, ![1, 512]⟩
abbrev S3x512 : Shape := ⟨2, ![3, 512]⟩
abbrev S4x300x512 : Shape := ⟨3, ![4, 300, 512]⟩
abbrev S4x512x512 : Shape := ⟨3, ![4, 512, 512]⟩
abbrev S1x1x512 : Shape := ⟨3, ![1, 1, 512]⟩
abbrev S4x300 : Shape := ⟨2, ![4, 300]⟩
abbrev S4x300x1 : Shape := ⟨3, ![4, 300, 1]⟩

abbrev nBuf : Space → Nat
  | .hbm => 19
  | .vmem => 12
  | .smem => 0
  | _ => 0

abbrev bufTy : (tb : Table) → Fin (tcTables nBuf tb) → BufTy
  | .hbm, ⟨0, _⟩ => ⟨S32x300x512, .f32⟩
  | .hbm, ⟨1, _⟩ => ⟨S32x1024x512, .f32⟩
  | .hbm, ⟨2, _⟩ => ⟨S512x512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S262144x512, .f32⟩
  | .hbm, ⟨12, _⟩ => ⟨S32x262144, .bf16⟩
  | .hbm, ⟨13, _⟩ => ⟨S32x512x512, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S3x512, .f32⟩
  | .hbm, ⟨18, _⟩ => ⟨S32x300x512, .f32⟩
  | .local _ .vmem, ⟨0, _⟩ => ⟨S4096x512, .f32⟩
  | .local _ .vmem, ⟨1, _⟩ => ⟨S4096x512, .f32⟩
  | .local _ .vmem, ⟨2, _⟩ => ⟨S32x512, .f32⟩
  | .local _ .vmem, ⟨3, _⟩ => ⟨S32x4096, .bf16⟩
  | .local _ .vmem, ⟨4, _⟩ => ⟨S32x4096, .bf16⟩
  | .local _ .vmem, ⟨5, _⟩ => ⟨S4x300x512, .f32⟩
  | .local _ .vmem, ⟨6, _⟩ => ⟨S4x300x512, .f32⟩
  | .local _ .vmem, ⟨7, _⟩ => ⟨S4x512x512, .bf16⟩
  | .local _ .vmem, ⟨8, _⟩ => ⟨S4x512x512, .bf16⟩
  | .local _ .vmem, ⟨9, _⟩ => ⟨S3x512, .f32⟩
  | .local _ .vmem, ⟨10, _⟩ => ⟨S4x300x512, .f32⟩
  | .local _ .vmem, ⟨11, _⟩ => ⟨S4x300x512, .f32⟩
  | _, _ => ⟨S32x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x300x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x300x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S32x1024x512_S32x512_d1 : S32x1024x512.ReducesTo [1] S32x512
  h_S_ : 0 < S_.numel
  bcast_S_S32x512 : S_.BroadcastsInDim S32x512 (![] : Fin 0 → Fin S32x512.rank)
  shapeCasts_S512x512x512_S262144x512 : S512x512x512.ShapeCasts S262144x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x4096_S32x4096_0_0 : ∀ a, (![0, 0] : Fin 2 → Nat) a + S32x4096.size a ≤ S32x4096.size a
  h_S32x4096 : 0 < S32x4096.numel
  packedbf16_S32x4096_S32x4096_0_0 : (Rect.unit (s := S32x4096) ![0, 0] S32x4096.size inb_S32x4096_S32x4096_0_0).PackedRows (EltTy.packing .bf16)
  shapeCasts_S32x262144_S32x512x512 : S32x262144.ShapeCasts S32x512x512
  bcast_S512_S1x512_1 : S512.BroadcastsInDim S1x512 (![1] : Fin 1 → Fin S1x512.rank)
  concatenates_S1x512_S1x512_S1x512_S3x512_d0 : Shape.Concatenates [S1x512, S1x512, S1x512] S3x512 0
  inb_S4x300x512_S4x300x512_0_0_0 : ∀ a, (![0, 0, 0] : Fin 3 → Nat) a + S4x300x512.size a ≤ S4x300x512.size a
  h_S4x300x512 : 0 < S4x300x512.numel
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  inb_S3x512_S1x512_0_0 : ∀ a, (![0, 0] : Fin 2 → Nat) a + S1x512.size a ≤ S3x512.size a
  h_S1x512 : 0 < S1x512.numel
  shapeCasts_S1x512_S1x512 : S1x512.ShapeCasts S1x512
  shapeCasts_S1x512_S1x1x512 : S1x512.ShapeCasts S1x1x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  broadcasts_S1x1x512_S4x300x512 : S1x1x512.Broadcasts S4x300x512
  reduces_S4x300x512_S4x300 : S4x300x512.Reduces [2] S4x300
  shapeCasts_S4x300_S4x300x1 : S4x300.ShapeCasts S4x300x1
  broadcasts_S4x300x1_S4x300x512 : S4x300x1.Broadcasts S4x300x512
  dot_S32x512_S4096x512_S32x4096_1_1_0_0_n_n_wf : DotDims.WF S32x512 S4096x512 S32x4096 [1] [1] [0] [0] [] []
  dot_S4x300x512_S4x512x512_S4x300x512_2_2_1_1_0_0_wf : DotDims.WF S4x300x512 S4x512x512 S4x300x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x262144.size a
  hwx0_2 : ∀ i : grid0.Coords, EltTy.bits .bf16 = 32 ∨ (Rect.block (s := S32x262144) S32x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x300x512.size a ≤ S32x300x512.size a
  hwx1_0 : ∀ i : grid1.Coords, EltTy.bits .f32 = 32 ∨ (Rect.block (s := S32x300x512) S4x300x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x512.size a ≤ S32x512x512.size a
  hwx1_1 : ∀ i : grid1.Coords, EltTy.bits .bf16 = 32 ∨ (Rect.block (s := S32x512x512) S4x512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x512.size a ≤ S3x512.size a
  hwx1_2 : ∀ i : grid1.Coords, EltTy.bits .f32 = 32 ∨ (Rect.block (s := S3x512) S3x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x300x512.size a ≤ S32x300x512.size a
  hwx1_3 : ∀ i : grid1.Coords, EltTy.bits .f32 = 32 ∨ (Rect.block (s := S32x300x512) S4x300x512.size (cc1_transform_3 i) (hinb1_3 i)).WholeWords (EltTy.packing .f32)

variable [Facts₀]

def dot_S32x512_S4096x512_S32x4096_1_1_0_0_n_n : DotDims S32x512 S4096x512 S32x4096 where
  lhsContracting := [1]
  rhsContracting := [1]
  lhsNonContracting := [0]
  rhsNonContracting := [0]
  lhsBatch := []
  rhsBatch := []
  wf := dot_S32x512_S4096x512_S32x4096_1_1_0_0_n_n_wf
def dot_S4x300x512_S4x512x512_S4x300x512_2_2_1_1_0_0 : DotDims S4x300x512 S4x512x512 S4x300x512 where
  lhsContracting := [2]
  rhsContracting := [2]
  lhsNonContracting := [1]
  rhsNonContracting := [1]
  lhsBatch := [0]
  rhsBatch := [0]
  wf := dot_S4x300x512_S4x512x512_S4x300x512_2_2_1_1_0_0_wf

abbrev win0_0 : Pipeline.Window sig grid0 :=
  Pipeline.Window.ofSpec (Memref.whole main_v3) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4x300x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S3x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4x300x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x300x512 : Shape := ⟨3, ![32, 300, 512]⟩
abbrev S32x1024x512 : Shape := ⟨3, ![32, 1024, 512]⟩
abbrev S512x512x512 : Shape := ⟨3, ![512, 512, 512]⟩
abbrev S512 : Shape := ⟨1, ![512]⟩
abbrev S_ : Shape := ⟨0, ![]⟩
abbrev S32x512 : Shape := ⟨2, ![32, 512]⟩
abbrev S32x512x512 : Shape := ⟨3, ![32, 512, 512]⟩
abbrev S1x1x512 : Shape := ⟨3, ![1, 1, 512]⟩
abbrev S32x300 : Shape := ⟨2, ![32, 300]⟩
abbrev S32x300x1 : Shape := ⟨3, ![32, 300, 1]⟩

abbrev nBuf : Space → Nat
  | .hbm => 46
  | .vmem => 0
  | .smem => 0
  | _ => 0

abbrev bufTy : (tb : Table) → Fin (tcTables nBuf tb) → BufTy
  | .hbm, ⟨0, _⟩ => ⟨S32x300x512, .f32⟩
  | .hbm, ⟨1, _⟩ => ⟨S32x1024x512, .f32⟩
  | .hbm, ⟨2, _⟩ => ⟨S512x512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x512, .f32⟩
  | .hbm, ⟨12, _⟩ => ⟨S32x300x512, .f32⟩
  | .hbm, ⟨13, _⟩ => ⟨S1x1x512, .f32⟩
  | .hbm, ⟨14, _⟩ => ⟨S32x300x512, .f32⟩
  | .hbm, ⟨15, _⟩ => ⟨S32x300x512, .f32⟩
  | .hbm, ⟨16, _⟩ => ⟨S32x300x512, .f32⟩
  | .hbm, ⟨17, _⟩ => ⟨S_, .f32⟩
  | .hbm, ⟨18, _⟩ => ⟨S32x300, .f32⟩
  | .hbm, ⟨19, _⟩ => ⟨S32x300x1, .f32⟩
  | .hbm, ⟨20, _⟩ => ⟨S_, .f32⟩
  | .hbm, ⟨21, _⟩ => ⟨S32x300x1, .f32⟩
  | .hbm, ⟨22, _⟩ => ⟨S32x300x1, .f32⟩
  | .hbm, ⟨23, _⟩ => ⟨S32x300x512, .f32⟩
  | .hbm, ⟨24, _⟩ => ⟨S32x300x512, .f32⟩
  | .hbm, ⟨25, _⟩ => ⟨S32x300x512, .f32⟩
  | .hbm, ⟨26, _⟩ => ⟨S_, .f32⟩
  | .hbm, ⟨27, _⟩ => ⟨S32x300, .f32⟩
  | .hbm, ⟨28, _⟩ => ⟨S32x300x1, .f32⟩
  | .hbm, ⟨29, _⟩ => ⟨S_, .f32⟩
  | .hbm, ⟨30, _⟩ => ⟨S32x300x1, .f32⟩
  | .hbm, ⟨31, _⟩ => ⟨S32x300x1, .f32⟩
  | .hbm, ⟨32, _⟩ => ⟨S32x300x512, .f32⟩
  | .hbm, ⟨33, _⟩ => ⟨S32x300x512, .f32⟩
  | .hbm, ⟨34, _⟩ => ⟨S_, .f32⟩
  | .hbm, ⟨35, _⟩ => ⟨S32x300x1, .f32⟩
  | .hbm, ⟨36, _⟩ => ⟨S32x300x1, .f32⟩
  | .hbm, ⟨37, _⟩ => ⟨S32x300x1, .f32⟩
  | .hbm, ⟨38, _⟩ => ⟨S32x300x512, .f32⟩
  | .hbm, ⟨39, _⟩ => ⟨S32x300x512, .f32⟩
  | .hbm, ⟨40, _⟩ => ⟨S1x1x512, .f32⟩
  | .hbm, ⟨41, _⟩ => ⟨S32x300x512, .f32⟩
  | .hbm, ⟨42, _⟩ => ⟨S32x300x512, .f32⟩
  | .hbm, ⟨43, _⟩ => ⟨S1x1x512, .f32⟩
  | .hbm, ⟨44, _⟩ => ⟨S32x300x512, .f32⟩
  | .hbm, ⟨45, _⟩ => ⟨S32x300x512, .f32⟩
  | _, _ => ⟨S32x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  reducesTo_S32x1024x512_S32x512_d1 : S32x1024x512.ReducesTo [1] S32x512
  h_S_ : 0 < S_.numel
  bcast_S_S32x512 : S_.BroadcastsInDim S32x512 (![] : Fin 0 → Fin S32x512.rank)
  bcast_S512_S1x1x512_2 : S512.BroadcastsInDim S1x1x512 (![2] : Fin 1 → Fin S1x1x512.rank)
  bcast_S1x1x512_S32x300x512_0_1_2 : S1x1x512.BroadcastsInDim S32x300x512 (![0, 1, 2] : Fin 3 → Fin S32x300x512.rank)
  reducesTo_S32x300x512_S32x300_d2 : S32x300x512.ReducesTo [2] S32x300
  bcast_S32x300_S32x300x1_0_1 : S32x300.BroadcastsInDim S32x300x1 (![0, 1] : Fin 2 → Fin S32x300x1.rank)
  bcast_S_S32x300x1 : S_.BroadcastsInDim S32x300x1 (![] : Fin 0 → Fin S32x300x1.rank)
  bcast_S32x300x1_S32x300x512_0_1_2 : S32x300x1.BroadcastsInDim S32x300x512 (![0, 1, 2] : Fin 3 → Fin S32x300x512.rank)
  dot_S32x512_S512x512x512_S32x512x512_1_2_0_01_n_n_wf : DotDims.WF S32x512 S512x512x512 S32x512x512 [1] [2] [0] [0, 1] [] []
  dot_S32x300x512_S32x512x512_S32x300x512_2_2_1_1_0_0_wf : DotDims.WF S32x300x512 S32x512x512 S32x300x512 [2] [2] [1] [1] [0] [0]

variable [Facts₀]

def dot_S32x512_S512x512x512_S32x512x512_1_2_0_01_n_n : DotDims S32x512 S512x512x512 S32x512x512 where
  lhsContracting := [1]
  rhsContracting := [2]
  lhsNonContracting := [0]
  rhsNonContracting := [0, 1]
  lhsBatch := []
  rhsBatch := []
  wf := dot_S32x512_S512x512x512_S32x512x512_1_2_0_01_n_n_wf
def dot_S32x300x512_S32x512x512_S32x300x512_2_2_1_1_0_0 : DotDims S32x300x512 S32x512x512 S32x300x512 where
  lhsContracting := [2]
  rhsContracting := [2]
  lhsNonContracting := [1]
  rhsNonContracting := [1]
  lhsBatch := [0]
  rhsBatch := [0]
  wf := dot_S32x300x512_S32x512x512_S32x300x512_2_2_1_1_0_0_wf

class Facts : Prop extends Facts₀ where

variable [Facts]
-- ==== Proof.K_Body0.lean ====
/-
  The first pallas_call (the contraction of the weight tensor with the pooled second feature), as one region of the
  program, at ANY contents `V` of the core's buffers on entry.  Grid point `t` of 64 reads rows
  [4096 t, 4096 t + 4096) of the flattened weights W2[k·512+d, e] and the whole pooled matrix b[32, 512], and writes
  columns [4096 t, 4096 t + 4096) of the result: one matrix product, stored whole.  What is proved here is only how the
  body moves memory: after the body the output's staging buffer holds the body's one payload of the two input blocks,
  and the inputs' staging buffers are untouched.
-/
import proofs.«179774_j36129264894658_2_alg».proof.Proof.Gen.Kernel.Launch
import proofs.«179774_j36129264894658_2_alg».proof.Proof.Gen.Kernel.Skeleton
import proofs.«179774_j36129264894658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds the point's block of rows, whether or not it was fetched at this point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The pooled matrix is fetched once, at the first point; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes. -/
abbrev r0_0 : Rect S4096x512 := Rect.unit (s := S4096x512) ![0, 0] S4096x512.size inb_S4096x512_S4096x512_0_0
abbrev r0_1 : Rect S32x512 := Rect.unit (s := S32x512) ![0, 0] S32x512.size inb_S32x512_S32x512_0_0
abbrev r0_2 : Rect S32x4096 := Rect.unit (s := S32x4096) ![0, 0] S32x4096.size inb_S32x4096_S32x4096_0_0

/-- The output's staging buffer after the body: the one store, of the product of the two loaded blocks. -/
def out0_2 (x0 : Vec F S4096x512 .f32) (x1 : Vec F S32x512 .f32) : Vec F S32x4096 .bf16 :=
  View.canon [⟨r0_2, k0_pay1 (View.ld x0 r0_0) (View.ld x1 r0_1)⟩]

/-- The one store covers the buffer. -/
theorem cover0_2 (p0 : Vec F S32x4096 .bf16) (y : S32x4096.Idx) :
    ∃ pc ∈ ([⟨r0_2, p0⟩] : List (View.Piece (Elt F) S32x4096 .bf16)), y ∈ pc.1.set :=
  View.cover_of_tiled [⟨r0_2, p0⟩] S32x4096.size (by rfl) y

set_option maxHeartbeats 1000000 in
/-- The body on whole staging buffers: inputs at `x0`, `x1`, the output at anything; it ends with the inputs as they
    were and the output at `out0_2 x0 x1`. -/
theorem sound_kernel0 (c : Dev nD) (E : Set ℕ) (i : grid0.Coords) (arg1 : Memref sig .tc .vmem S4096x512 .f32) (harg1 : arg1.IsWhole) (arg2 : Memref sig .tc .vmem S32x512 .f32) (harg2 : arg2.IsWhole) (arg3 : Memref sig .tc .vmem S32x4096 .bf16) (harg3 : arg3.IsWhole)
    (x0 : Vec F S4096x512 .f32) (x1 : Vec F S32x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernelA i arg1 harg1 arg2 harg2 arg3 harg3) K := by
  simp only [cc0__kernelA_eq_skeleton]; unfold cc0__kernelA_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after the body at `t` each input's buffer at its block and
    the output's at the product of the blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K_Body1.lean ====
/-
  The second pallas_call (the batched product with the contracted weights, the bias, the residual and the layer
  normalisation), as one region of the program, at ANY contents `V` of the core's buffers on entry.  Grid point `t` of 8
  reads examples [4 t, 4 t + 4) of the first feature a[32, 300, 512] and of the contracted weights T[32, 512, 512],
  and the whole 3 × 512 table of bias, scale and shift, and writes examples [4 t, 4 t + 4) of the result, stored whole.
  What is proved here is only how the body moves memory: after the body the output's staging buffer holds the body's
  one payload of the three input blocks (the table read row by row), and the inputs' staging buffers are untouched.
-/
import proofs.«179774_j36129264894658_2_alg».proof.Proof.Gen.Kernel.Launch
import proofs.«179774_j36129264894658_2_alg».proof.Proof.Gen.Kernel.Skeleton
import proofs.«179774_j36129264894658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first feature's staging buffer holds the point's four examples, whether or not fetched at this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The contracted weights' staging buffer holds the point's four examples. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The table is fetched once, at the first point; its block index never moves, so the buffer holds it at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: the two whole blocks, and the table's three rows. -/
abbrev r1_0 : Rect S4x300x512 := Rect.unit (s := S4x300x512) ![0, 0, 0] S4x300x512.size inb_S4x300x512_S4x300x512_0_0_0
abbrev r1_1 : Rect S4x512x512 := Rect.unit (s := S4x512x512) ![0, 0, 0] S4x512x512.size inb_S4x512x512_S4x512x512_0_0_0
abbrev r1_2 : Rect S3x512 := Rect.unit (s := S3x512) ![0, 0] S1x512.size inb_S3x512_S1x512_0_0
abbrev r1_3 : Rect S3x512 := Rect.unit (s := S3x512) ![1, 0] S1x512.size inb_S3x512_S1x512_1_0
abbrev r1_4 : Rect S3x512 := Rect.unit (s := S3x512) ![2, 0] S1x512.size inb_S3x512_S1x512_2_0

/-- The output's staging buffer after the body: the one store, of the body's value of the loaded blocks and rows. -/
def out1_3 (x0 : Vec F S4x300x512 .f32) (x1 : Vec F S4x512x512 .bf16) (x2 : Vec F S3x512 .f32) : Vec F S4x300x512 .f32 :=
  View.canon [⟨r1_0, k1_pay1 (View.ld x0 r1_0) (View.ld x1 r1_1) (View.ld x2 r1_2) (View.ld x2 r1_3) (View.ld x2 r1_4)⟩]

/-- The one store covers the buffer. -/
theorem cover1_3 (p0 : Vec F S4x300x512 .f32) (y : S4x300x512.Idx) :
    ∃ pc ∈ ([⟨r1_0, p0⟩] : List (View.Piece (Elt F) S4x300x512 .f32)), y ∈ pc.1.set :=
  View.cover_of_tiled [⟨r1_0, p0⟩] S4x300x512.size (by rfl) y

set_option maxHeartbeats 1000000 in
/-- The body on whole staging buffers: inputs at `x0`, `x1`, `x2`, the output at anything; it ends with the inputs as
    they were and the output at `out1_3 x0 x1 x2`. -/
theorem sound_kernel1 (c : Dev nD) (E : Set ℕ) (i : grid1.Coords) (arg1 : Memref sig .tc .vmem S4x300x512 .f32) (harg1 : arg1.IsWhole) (arg2 : Memref sig .tc .vmem S4x512x512 .bf16) (harg2 : arg2.IsWhole) (arg3 : Memref sig .tc .vmem S3x512 .f32) (harg3 : arg3.IsWhole) (arg4 : Memref sig .tc .vmem S4x300x512 .f32) (harg4 : arg4.IsWhole)
    (x0 : Vec F S4x300x512 .f32) (x1 : Vec F S4x512x512 .bf16) (x2 : Vec F S3x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__kernelB i arg1 harg1 arg2 harg2 arg3 harg3 arg4 harg4) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The region's proof data on core `c`: the arrays as found; after the body at `t` each input's buffer at its block and
    the output's at the body's value of the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K_Run.lean ====
/-
  The whole program as four segments — the host operations before the first pallas_call (the pooling of the second
  feature and the flattening of the weights), the first pallas_call, the host operations between the two (the
  un-flattening of its result and the stacking of bias, scale and shift into one 3 × 512 table), the second
  pallas_call — and what every unscoped buffer holds when the program ends: a fold `W0 … W4` from the launch memory, a
  host stretch by its operations, a pallas_call by what its write-backs leave in its arrays.  From it: every argument
  ends as launched, and the result array holds the second pallas_call's written-back blocks.
-/
import proofs.«179774_j36129264894658_2_alg».proof.Proof.Gen.Kernel.Launch
import proofs.«179774_j36129264894658_2_alg».proof.Proof.Gen.Kernel.Skeleton
import proofs.«179774_j36129264894658_2_alg».proof.Proof.Gen.Kernel.Points
import proofs.«179774_j36129264894658_2_alg».proof.Proof.Gen.Kernel.Regions
import proofs.«179774_j36129264894658_2_alg».proof.Proof.K_Body0
import proofs.«179774_j36129264894658_2_alg».proof.Proof.K_Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, and a pallas_call only reads them -/

/-- A buffer the first host stretch does not write is as launched at the first pallas_call's entry. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the second host stretch does not write is as the first pallas_call left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The first feature is the second pallas_call's first input: read, never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
/-- An argument no pallas_call stages and no host operation writes ends as launched. -/
theorem W4_of_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  calc W4 m ρ c (Proc.devRef .tc r)
    _ = W3 m ρ c (Proc.devRef .tc r) := W4_of_ne m ρ c r h4
    _ = W2 m ρ c (Proc.devRef .tc r) := W3_of m ρ c r h3
    _ = W1 m ρ c (Proc.devRef .tc r) := W2_of_ne m ρ c r h2
    _ = W0 m ρ c (Proc.devRef .tc r) := W1_of m ρ c r h1
    _ = m ((c : Thread nD τ).loc r) := rfl
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)

/-! ## The proof data family and the thread state -/

abbrev adm : (p : Fin 2) → (pcfgs (F := F) p).Adm := fun p => (cfgs p).toPCfg_adm
/-- Each pallas_call's proof data, at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- THE RESULT: the result array ends holding the second pallas_call's write-backs, and every argument as launched. -/
theorem run_result : θ_run defs (onTc (τ := τ) (main (F := F))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v10 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.KI_Body0.lean ====
/-
  The first pallas_call (the contraction of the weight tensor with the pooled second feature), as one region of the
  program, at ANY contents `V` of the core's buffers on entry.  Grid point `t` of 64 reads rows
  [4096 t, 4096 t + 4096) of the flattened weights W2[k·512+d, e] and the whole pooled matrix b[32, 512], and writes
  columns [4096 t, 4096 t + 4096) of the result: one matrix product, stored whole.  What is proved here is only how the
  body moves memory: after the body the output's staging buffer holds the body's one payload of the two input blocks,
  and the inputs' staging buffers are untouched.
-/
import proofs.«179774_j36129264894658_2_alg».proof.Proof.Gen.KernelIdeal.Launch
import proofs.«179774_j36129264894658_2_alg».proof.Proof.Gen.KernelIdeal.Skeleton
import proofs.«179774_j36129264894658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds the point's block of rows, whether or not it was fetched at this point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The pooled matrix is fetched once, at the first point; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes. -/
abbrev r0_0 : Rect S4096x512 := Rect.unit (s := S4096x512) ![0, 0] S4096x512.size inb_S4096x512_S4096x512_0_0
abbrev r0_1 : Rect S32x512 := Rect.unit (s := S32x512) ![0, 0] S32x512.size inb_S32x512_S32x512_0_0
abbrev r0_2 : Rect S32x4096 := Rect.unit (s := S32x4096) ![0, 0] S32x4096.size inb_S32x4096_S32x4096_0_0

/-- The output's staging buffer after the body: the one store, of the product of the two loaded blocks. -/
def out0_2 (x0 : Vec F S4096x512 .f32) (x1 : Vec F S32x512 .f32) : Vec F S32x4096 .bf16 :=
  View.canon [⟨r0_2, k0_pay1 (View.ld x0 r0_0) (View.ld x1 r0_1)⟩]

/-- The one store covers the buffer. -/
theorem cover0_2 (p0 : Vec F S32x4096 .bf16) (y : S32x4096.Idx) :
    ∃ pc ∈ ([⟨r0_2, p0⟩] : List (View.Piece (Elt F) S32x4096 .bf16)), y ∈ pc.1.set :=
  View.cover_of_tiled [⟨r0_2, p0⟩] S32x4096.size (by rfl) y

set_option maxHeartbeats 1000000 in
/-- The body on whole staging buffers: inputs at `x0`, `x1`, the output at anything; it ends with the inputs as they
    were and the output at `out0_2 x0 x1`. -/
theorem sound_kernel0 (c : Dev nD) (E : Set ℕ) (i : grid0.Coords) (arg1 : Memref sig .tc .vmem S4096x512 .f32) (harg1 : arg1.IsWhole) (arg2 : Memref sig .tc .vmem S32x512 .f32) (harg2 : arg2.IsWhole) (arg3 : Memref sig .tc .vmem S32x4096 .bf16) (harg3 : arg3.IsWhole)
    (x0 : Vec F S4096x512 .f32) (x1 : Vec F S32x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernelA i arg1 harg1 arg2 harg2 arg3 harg3) K := by
  simp only [cc0__kernelA_eq_skeleton]; unfold cc0__kernelA_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after the body at `t` each input's buffer at its block and
    the output's at the product of the blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI_Body1.lean ====
/-
  The second pallas_call (the batched product with the contracted weights, the bias, the residual and the layer
  normalisation), as one region of the program, at ANY contents `V` of the core's buffers on entry.  Grid point `t` of 8
  reads examples [4 t, 4 t + 4) of the first feature a[32, 300, 512] and of the contracted weights T[32, 512, 512],
  and the whole 3 × 512 table of bias, scale and shift, and writes examples [4 t, 4 t + 4) of the result, stored whole.
  What is proved here is only how the body moves memory: after the body the output's staging buffer holds the body's
  one payload of the three input blocks (the table read row by row), and the inputs' staging buffers are untouched.
-/
import proofs.«179774_j36129264894658_2_alg».proof.Proof.Gen.KernelIdeal.Launch
import proofs.«179774_j36129264894658_2_alg».proof.Proof.Gen.KernelIdeal.Skeleton
import proofs.«179774_j36129264894658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first feature's staging buffer holds the point's four examples, whether or not fetched at this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The contracted weights' staging buffer holds the point's four examples. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The table is fetched once, at the first point; its block index never moves, so the buffer holds it at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: the two whole blocks, and the table's three rows. -/
abbrev r1_0 : Rect S4x300x512 := Rect.unit (s := S4x300x512) ![0, 0, 0] S4x300x512.size inb_S4x300x512_S4x300x512_0_0_0
abbrev r1_1 : Rect S4x512x512 := Rect.unit (s := S4x512x512) ![0, 0, 0] S4x512x512.size inb_S4x512x512_S4x512x512_0_0_0
abbrev r1_2 : Rect S3x512 := Rect.unit (s := S3x512) ![0, 0] S1x512.size inb_S3x512_S1x512_0_0
abbrev r1_3 : Rect S3x512 := Rect.unit (s := S3x512) ![1, 0] S1x512.size inb_S3x512_S1x512_1_0
abbrev r1_4 : Rect S3x512 := Rect.unit (s := S3x512) ![2, 0] S1x512.size inb_S3x512_S1x512_2_0

/-- The output's staging buffer after the body: the one store, of the body's value of the loaded blocks and rows. -/
def out1_3 (x0 : Vec F S4x300x512 .f32) (x1 : Vec F S4x512x512 .bf16) (x2 : Vec F S3x512 .f32) : Vec F S4x300x512 .f32 :=
  View.canon [⟨r1_0, k1_pay1 (View.ld x0 r1_0) (View.ld x1 r1_1) (View.ld x2 r1_2) (View.ld x2 r1_3) (View.ld x2 r1_4)⟩]

/-- The one store covers the buffer. -/
theorem cover1_3 (p0 : Vec F S4x300x512 .f32) (y : S4x300x512.Idx) :
    ∃ pc ∈ ([⟨r1_0, p0⟩] : List (View.Piece (Elt F) S4x300x512 .f32)), y ∈ pc.1.set :=
  View.cover_of_tiled [⟨r1_0, p0⟩] S4x300x512.size (by rfl) y

set_option maxHeartbeats 1000000 in
/-- The body on whole staging buffers: inputs at `x0`, `x1`, `x2`, the output at anything; it ends with the inputs as
    they were and the output at `out1_3 x0 x1 x2`. -/
theorem sound_kernel1 (c : Dev nD) (E : Set ℕ) (i : grid1.Coords) (arg1 : Memref sig .tc .vmem S4x300x512 .f32) (harg1 : arg1.IsWhole) (arg2 : Memref sig .tc .vmem S4x512x512 .bf16) (harg2 : arg2.IsWhole) (arg3 : Memref sig .tc .vmem S3x512 .f32) (harg3 : arg3.IsWhole) (arg4 : Memref sig .tc .vmem S4x300x512 .f32) (harg4 : arg4.IsWhole)
    (x0 : Vec F S4x300x512 .f32) (x1 : Vec F S4x512x512 .bf16) (x2 : Vec F S3x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__kernelB i arg1 harg1 arg2 harg2 arg3 harg3 arg4 harg4) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The region's proof data on core `c`: the arrays as found; after the body at `t` each input's buffer at its block and
    the output's at the body's value of the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI_Run.lean ====
/-
  The whole program as four segments — the host operations before the first pallas_call (the pooling of the second
  feature and the flattening of the weights), the first pallas_call, the host operations between the two (the
  un-flattening of its result and the stacking of bias, scale and shift into one 3 × 512 table), the second
  pallas_call — and what every unscoped buffer holds when the program ends: a fold `W0 … W4` from the launch memory, a
  host stretch by its operations, a pallas_call by what its write-backs leave in its arrays.  From it: every argument
  ends as launched, and the result array holds the second pallas_call's written-back blocks.
-/
import proofs.«179774_j36129264894658_2_alg».proof.Proof.Gen.KernelIdeal.Launch
import proofs.«179774_j36129264894658_2_alg».proof.Proof.Gen.KernelIdeal.Skeleton
import proofs.«179774_j36129264894658_2_alg».proof.Proof.Gen.KernelIdeal.Points
import proofs.«179774_j36129264894658_2_alg».proof.Proof.Gen.KernelIdeal.Regions
import proofs.«179774_j36129264894658_2_alg».proof.Proof.KI_Body0
import proofs.«179774_j36129264894658_2_alg».proof.Proof.KI_Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, and a pallas_call only reads them -/

/-- A buffer the first host stretch does not write is as launched at the first pallas_call's entry. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the second host stretch does not write is as the first pallas_call left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The first feature is the second pallas_call's first input: read, never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
/-- An argument no pallas_call stages and no host operation writes ends as launched. -/
theorem W4_of_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  calc W4 m ρ c (Proc.devRef .tc r)
    _ = W3 m ρ c (Proc.devRef .tc r) := W4_of_ne m ρ c r h4
    _ = W2 m ρ c (Proc.devRef .tc r) := W3_of m ρ c r h3
    _ = W1 m ρ c (Proc.devRef .tc r) := W2_of_ne m ρ c r h2
    _ = W0 m ρ c (Proc.devRef .tc r) := W1_of m ρ c r h1
    _ = m ((c : Thread nD τ).loc r) := rfl
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)

/-! ## The proof data family and the thread state -/

abbrev adm : (p : Fin 2) → (pcfgs (F := F) p).Adm := fun p => (cfgs p).toPCfg_adm
/-- Each pallas_call's proof data, at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- THE RESULT: the result array ends holding the second pallas_call's write-backs, and every argument as launched. -/
theorem run_result : θ_run defs (onTc (τ := τ) (main (F := F))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v10 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.KV_PayA.lean ====
/-
  The first pallas_call's arithmetic at one entry of its block.  With x0[4096, 512] the block of flattened weight rows
  and x1[32, 512] the pooled matrix, the body stores their product contracted over the last axis of both:
      payload[b, r] = ∑ₑ x1[b, e] · x0[r, e],
  the two roundings to bf16 on the way in and the one on the way out being the identity on extended reals, and the
  matrix unit's zero accumulator adding nothing.
-/
import proofs.«179774_j36129264894658_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen ValueIdx

abbrev DA := dot_S32x512_S4096x512_S32x4096_1_1_0_0_n_n

/-! Which operand entries the product at output index `i` and contraction index `q` multiplies. -/
theorem lhsA_0 (i : S32x4096.Idx) (q : DA.contr.Idx) : (DA.lhsIdx i q 0).val = (i 0).val := by
  unfold DotDims.lhsIdx
  rw [dif_neg (show ¬(0 : Fin S32x512.rank) ∈ DA.lhsBatch by decide), dif_pos (show (0 : Fin S32x512.rank) ∈ DA.lhsNonContracting by decide)]
  rfl
theorem lhsA_1 (i : S32x4096.Idx) (q : DA.contr.Idx) : (DA.lhsIdx i q 1).val = (q ⟨0, by decide⟩).val :=
  DA.lhsIdx_val_of_single rfl i q
theorem rhsA_0 (i : S32x4096.Idx) (q : DA.contr.Idx) : (DA.rhsIdx i q 0).val = (i 1).val := by
  unfold DotDims.rhsIdx
  rw [dif_neg (show ¬(0 : Fin S4096x512.rank) ∈ DA.rhsBatch by decide), dif_pos (show (0 : Fin S4096x512.rank) ∈ DA.rhsNonContracting by decide)]
  rfl
theorem rhsA_1 (i : S32x4096.Idx) (q : DA.contr.Idx) : (DA.rhsIdx i q 1).val = (q ⟨0, by decide⟩).val :=
  DA.rhsIdx_val_of_single rfl i q

/-- The payload at `(b, r)`: the pooled row `b` against the weight row `r`. -/
theorem payA (x0 : Vec Ideal S4096x512 .f32) (x1 : Vec Ideal S32x512 .f32) (b : Fin 32) (r : Fin 4096) :
    k0_pay1 (F := Ideal) x0 x1 (ix2 b r) = ∑ e : Fin 512, x1 (ix2 b e) * x0 (ix2 r e) := by
  unfold k0_pay1
  simp only [shapeCast_self]
  refine (Ideal.matmul_constant_zero_apply DA none _ _ _).trans ?_
  rw [← Equiv.sum_comp (ValueIdx.contrEquiv1 DA 512 rfl rfl).symm]
  refine Finset.sum_congr rfl fun e _ => ?_
  have hk := ValueIdx.contrEquiv1_symm_val DA 512 rfl rfl e
  have el : DA.lhsIdx (ix2 b r) ((ValueIdx.contrEquiv1 DA 512 rfl rfl).symm e) = ix2 b e := funext fun x => Fin.ext (by
    match x with
    | ⟨0, _⟩ => exact lhsA_0 _ _
    | ⟨1, _⟩ => exact (lhsA_1 _ _).trans hk)
  have er : DA.rhsIdx (ix2 b r) ((ValueIdx.contrEquiv1 DA 512 rfl rfl).symm e) = ix2 r e := funext fun x => Fin.ext (by
    match x with
    | ⟨0, _⟩ => exact rhsA_0 _ _
    | ⟨1, _⟩ => exact (rhsA_1 _ _).trans hk)
  rw [el, er]
  rfl

end Cert.KernelIdeal.Val

end
-- ==== Proof.KV_A.lean ====
/-
  What the first pallas_call leaves in its result array, as one function of its two operand arrays as it finds them:
      C[b, j] = ∑ₑ pooled[b, e] · W2[j, e]            (b < 32, j < 262144),
  W2 the flattened weights.  Grid point t writes columns [4096 t, 4096 t + 4096) of C from rows [4096 t, 4096 t + 4096)
  of W2; the 64 points' column ranges tile the array, so after the run the array IS C.
-/
import proofs.«179774_j36129264894658_2_alg».proof.Proof.KI_Body0
import proofs.«179774_j36129264894658_2_alg».proof.Proof.KV_PayA
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen ValueIdx

open Cert.KernelIdeal.Hand Idealize.ShloMosaic.Pipeline

/-- The contraction of the flattened weights with the pooled matrix. -/
def contr (w2 : S262144x512.Idx → EReal) (bm : S32x512.Idx → EReal) : S32x262144.Idx → EReal :=
  fun i => ∑ e : Fin 512, bm (ix2 (⟨(i 0).val, (i 0).isLt⟩ : Fin 32) e) * w2 (ix2 (⟨(i 1).val, (i 1).isLt⟩ : Fin 262144) e)

theorem hz2 : (![0, 0] : Fin 2 → Nat) = fun _ => 0 := funext fun a => by fin_cases a <;> rfl

/-- The index maps over the grid: the weights' block moves down with the point, the result's block moves right with it,
    the pooled matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

theorem t_lt0 (t : Fin cfg0.N) : t.val < 64 := lt_of_lt_of_eq t.isLt N_0

variable (V : (c : Dev nD) → (b : Ref sig .tc) → Buf (Elt Ideal) ((c : Thread nD τ).loc b))

/-- Two sums over the contracted axis agree when their factors do. -/
theorem sumA (X1 bm : Vec Ideal S32x512 .f32) (X0 : Vec Ideal S4096x512 .f32) (w2 : Vec Ideal S262144x512 .f32)
    (b : Fin 32) (r : Fin 4096) (R : Fin 262144)
    (h1 : ∀ e : Fin 512, X1 (ix2 b e) = bm (ix2 b e)) (h0 : ∀ e : Fin 512, X0 (ix2 r e) = w2 (ix2 R e)) :
    (∑ e : Fin 512, X1 (ix2 b e) * X0 (ix2 r e)) = ∑ e : Fin 512, bm (ix2 b e) * w2 (ix2 R e) :=
  Finset.sum_congr rfl fun e _ => by rw [h1 e, h0 e]

theorem contr_ix2 (w2 : S262144x512.Idx → EReal) (bm : S32x512.Idx → EReal) (b : Fin 32) (R : Fin 262144) :
    contr w2 bm (ix2 b R) = ∑ e : Fin 512, bm (ix2 b e) * w2 (ix2 R e) := rfl

/-- WHAT POINT `t` WRITES BACK is block `t` of `C` of the operand arrays as the region finds them. -/
theorem flushed0_eq (c : Dev nD) (t : Fin cfg0.N) :
    (dat0 V c).flushed 2 t = ((cfg0.win 2).blk t).view.read (Elt Ideal) (contr (V c main_v3) (V c main_v2)) := by
  show (cfg0.win 2).cut (grid0.coords t) ((dat0 V c).after 2 t) = _
  rw [after0_2]
  unfold out0_2
  rw [View.canon_unit_zero hz2]
  simp only [View.ld_unit_zero (S := S4096x512) hz2, View.ld_unit_zero (S := S32x512) hz2]
  obtain ⟨e0, e1, e2, e3, e4, e5⟩ := idx_facts0 t
  have ht := t_lt0 t
  funext j
  obtain ⟨b, r, rfl⟩ : ∃ (b : Fin 32) (r : Fin 4096), j = ix2 b r := ⟨j 0, j 1, eq_ix2 j⟩
  have hemb1 : ∀ e : Fin 512, ((cfg0.win 1).blk t).view.emb (ix2 b e) = (ix2 b e : S32x512.Idx) := fun e => by
    funext a; apply Fin.ext
    match a with
    | ⟨0, _⟩ => show win0_1.index t (0 : Fin 2) * 32 + 1 * b.val = b.val; omega
    | ⟨1, _⟩ => show win0_1.index t (1 : Fin 2) * 512 + 1 * e.val = e.val; omega
  have hemb0 : ∀ e : Fin 512, ((cfg0.win 0).blk t).view.emb (ix2 r e) = (ix2 (⟨4096 * t.val + r.val, by omega⟩ : Fin 262144) e : S262144x512.Idx) := fun e => by
    funext a; apply Fin.ext
    match a with
    | ⟨0, _⟩ => show win0_0.index t (0 : Fin 2) * 4096 + 1 * r.val = 4096 * t.val + r.val; omega
    | ⟨1, _⟩ => show win0_0.index t (1 : Fin 2) * 512 + 1 * e.val = e.val; omega
  have hemb2 : ((cfg0.win 2).blk t).view.emb (ix2 b r) = (ix2 b (⟨4096 * t.val + r.val, by omega⟩ : Fin 262144) : S32x262144.Idx) := by
    funext a; apply Fin.ext
    match a with
    | ⟨0, _⟩ => show win0_2.index t (0 : Fin 2) * 32 + 1 * b.val = b.val; omega
    | ⟨1, _⟩ => show win0_2.index t (1 : Fin 2) * 4096 + 1 * r.val = 4096 * t.val + r.val; omega
  refine (payA (iblk0 V c 0 t) (iblk0 V c 1 t) b r).trans ?_
  refine (sumA (iblk0 V c 1 t) (V c main_v2) (iblk0 V c 0 t) (V c main_v3) b r ⟨4096 * t.val + r.val, by omega⟩ ?_ ?_).trans ?_
  · intro e
    show V c main_v2 (((cfg0.win 1).blk t).view.emb (ix2 b e)) = V c main_v2 (ix2 b e)
    rw [hemb1 e]
  · intro e
    show V c main_v3 (((cfg0.win 0).blk t).view.emb (ix2 r e)) = V c main_v3 (ix2 (⟨4096 * t.val + r.val, by omega⟩ : Fin 262144) e)
    rw [hemb0 e]
  · show _ = contr (V c main_v3) (V c main_v2) (((cfg0.win 2).blk t).view.emb (ix2 b r))
    rw [hemb2]
    rfl

/-- An index of the result array is in point `t`'s block iff each coordinate is in the block's range on its axis. -/
theorem mem_blk0 (t : Fin cfg0.N) (i : S32x262144.Idx) :
    i ∈ ((cfg0.win 2).blk t).view.set ↔ ∀ a : Fin 2, win0_2.index t a * S32x4096.size a ≤ (i a).val ∧ (i a).val < win0_2.index t a * S32x4096.size a + S32x4096.size a := by
  show i ∈ ((View.whole main_v4).slice (win0_2.rect t)).set ↔ _
  rw [View.set_slice_whole, Rect.mem_set_unit]
  exact Iff.rfl

/-- Every column is in the range of the point its index divided by 4096 names. -/
theorem cover0 (i : S32x262144.Idx) : ∃ t : Fin cfg0.N, (cfg0.win 2).flush t = true ∧ i ∈ ((cfg0.win 2).blk t).view.set := by
  have hi0 : (i 0).val < 32 := (i 0).isLt
  have hi1 : (i 1).val < 262144 := (i 1).isLt
  let t : Fin cfg0.N := ⟨(i 1).val / 4096, lt_of_lt_of_eq (by omega : (i 1).val / 4096 < 64) N_0.symm⟩
  obtain ⟨e0, e1, e2, e3, e4, e5⟩ := idx_facts0 t
  have htv : t.val = (i 1).val / 4096 := rfl
  refine ⟨t, flush0_2 t, ?_⟩
  rw [mem_blk0]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 4096 ≤ (i 1).val ∧ (i 1).val < win0_2.index t (1 : Fin 2) * 4096 + 4096; omega

/-- THE RESULT ARRAY after the region: the contraction of the operand arrays as the region found them. -/
theorem final0 (c : Dev nD) : (dat0 V c).arrAt 2 cfg0.N = contr (V c main_v3) (V c main_v2) :=
  (dat0 V c).arrAt_eq_of_cover 2 _ (fun t _ => flushed0_eq V c t) cover0

end Cert.KernelIdeal.Val

end
-- ==== Proof.Spec.lean ====
/-
  The function both programs compute, over the extended reals, index by index.

  With a[32,300,512] the first feature, T[32,512,512] the weights contracted with the pooled second feature
  (T[b,k,d] = ∑ₑ pooled[b,e] · W[k,d,e]), and bias, scale, shift in ℝ⁵¹², the row of example b at position a is
      x[k] = (∑_d a[b,a,d] · T[b,k,d]) + bias[k] + a[b,a,k],
  and the result is its layer normalisation over k, scaled and shifted:
      out[b,a,k] = (x[k] − μ) · rsqrt(σ² + ε) · scale[k] + shift[k],   μ = (∑ x)/c,  σ² = (∑ (x − μ)²)/c,
  with c and ε the two float literals both programs carry (512 and about 1e-5), kept as their bit patterns.
  Every sum is a sum over Fin 512 of extended reals, in the one order both programs state it: nothing here needs
  the inputs finite.
-/
import Idealize.ShloMosaic.PureOps.Ideal
import Idealize.ShloMosaic.Lib.ValueIdx

noncomputable section

namespace Cert.BilinearNorm

open Idealize.ShloMosaic ValueIdx

/-- The divisor 512.0 and the ε of the normalisation, as the extended reals their f32 patterns denote. -/
abbrev cN : EReal := Ideal.ofBits .f32 0x44000000#32
abbrev cEps : EReal := Ideal.ofBits .f32 0x3727C5AC#32

/-- The mean of a row of 512 entries: their sum divided by `c`. -/
def rowMean (c : EReal) (x : Fin 512 → EReal) : EReal := Ideal.div (∑ k : Fin 512, x k) c

/-- The layer normalisation of the row `x` at position `k`, scaled by `g` and shifted by `s`. -/
def lnAt (c e : EReal) (x g s : Fin 512 → EReal) (k : Fin 512) : EReal :=
  (x k - rowMean c x) * Ideal.rsqrt (rowMean c (fun k' => (x k' - rowMean c x) * (x k' - rowMean c x)) + e) * g k + s k

abbrev SA : Shape := ⟨3, ![32, 300, 512]⟩
abbrev ST : Shape := ⟨3, ![32, 512, 512]⟩
abbrev SV : Shape := ⟨1, ![512]⟩

/-- The row before normalisation: the product with the contracted weights, plus the bias, plus the residual. -/
def xrow (A : SA.Idx → EReal) (T : ST.Idx → EReal) (bias : SV.Idx → EReal) (b : Fin 32) (a : Fin 300) (k : Fin 512) : EReal :=
  (∑ d : Fin 512, A (ix3 b a d) * T (ix3 b k d)) + bias (ix1 k) + A (ix3 b a k)

/-- The result at the coordinates (b, a, k). -/
def outAt (A : SA.Idx → EReal) (T : ST.Idx → EReal) (bias g s : SV.Idx → EReal) (b : Fin 32) (a : Fin 300) (k : Fin 512) : EReal :=
  lnAt cN cEps (xrow A T bias b a) (fun k' => g (ix1 k')) (fun k' => s (ix1 k')) k

/-- The result array. -/
def out (A : SA.Idx → EReal) (T : ST.Idx → EReal) (bias g s : SV.Idx → EReal) : SA.Idx → EReal :=
  fun i => outAt A T bias g s ⟨(i 0).val, (i 0).isLt⟩ ⟨(i 1).val, (i 1).isLt⟩ ⟨(i 2).val, (i 2).isLt⟩

theorem out_ix3 (A : SA.Idx → EReal) (T : ST.Idx → EReal) (bias g s : SV.Idx → EReal) (b : Fin 32) (a : Fin 300) (k : Fin 512) :
    out A T bias g s (ix3 b a k) = outAt A T bias g s b a k := rfl

end Cert.BilinearNorm

end
-- ==== Proof.KV_PayB.lean ====
/-
  The second pallas_call's arithmetic at one entry of its block.  With x0[4, 300, 512] the block of the first feature,
  x1[4, 512, 512] the block of contracted weights and r0, r1, r2 the table's rows (bias, scale, shift), the body stores
      payload[b, a, k] = the layer normalisation over k' of  x[k'] = (∑_d x0[b,a,d] · x1[b,k',d]) + r0[k'] + x0[b,a,k'],
  scaled by r1 and shifted by r2.  Each layout operation of the body (a row viewed [1,1,512] and broadcast, a row sum
  kept as a column [4,300,1] and broadcast back) is read at an index; the roundings to bf16 are the identity on
  extended reals and the matrix unit's zero accumulator adds nothing.
-/
import proofs.«179774_j36129264894658_2_alg».proof.Proof.Gen.KernelIdeal.Skeleton
import proofs.«179774_j36129264894658_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen ValueIdx Cert.BilinearNorm

abbrev DB := dot_S4x300x512_S4x512x512_S4x300x512_2_2_1_1_0_0

theorem lhsB_0 (i : S4x300x512.Idx) (q : DB.contr.Idx) : (DB.lhsIdx i q 0).val = (i 0).val := by
  unfold DotDims.lhsIdx
  rw [dif_pos (show (0 : Fin S4x300x512.rank) ∈ DB.lhsBatch by decide)]
  rfl
theorem lhsB_1 (i : S4x300x512.Idx) (q : DB.contr.Idx) : (DB.lhsIdx i q 1).val = (i 1).val := by
  unfold DotDims.lhsIdx
  rw [dif_neg (show ¬(1 : Fin S4x300x512.rank) ∈ DB.lhsBatch by decide), dif_pos (show (1 : Fin S4x300x512.rank) ∈ DB.lhsNonContracting by decide)]
  rfl
theorem lhsB_2 (i : S4x300x512.Idx) (q : DB.contr.Idx) : (DB.lhsIdx i q 2).val = (q ⟨0, by decide⟩).val :=
  DB.lhsIdx_val_of_single rfl i q
theorem rhsB_0 (i : S4x300x512.Idx) (q : DB.contr.Idx) : (DB.rhsIdx i q 0).val = (i 0).val := by
  unfold DotDims.rhsIdx
  rw [dif_pos (show (0 : Fin S4x512x512.rank) ∈ DB.rhsBatch by decide)]
  rfl
theorem rhsB_1 (i : S4x300x512.Idx) (q : DB.contr.Idx) : (DB.rhsIdx i q 1).val = (i 2).val := by
  unfold DotDims.rhsIdx
  rw [dif_neg (show ¬(1 : Fin S4x512x512.rank) ∈ DB.rhsBatch by decide), dif_pos (show (1 : Fin S4x512x512.rank) ∈ DB.rhsNonContracting by decide)]
  rfl
theorem rhsB_2 (i : S4x300x512.Idx) (q : DB.contr.Idx) : (DB.rhsIdx i q 2).val = (q ⟨0, by decide⟩).val :=
  DB.rhsIdx_val_of_single rfl i q

theorem mmB (l : FVec Ideal S4x300x512 .bf16) (r : FVec Ideal S4x512x512 .bf16) (b : Fin 4) (a : Fin 300) (k : Fin 512) :
    matmul DB none l r (constant S4x300x512 .f32 0x00000000#32) (ix3 b a k) = ∑ d : Fin 512, l (ix3 b a d) * r (ix3 b k d) := by
  refine (Ideal.matmul_constant_zero_apply DB none _ _ _).trans ?_
  rw [← Equiv.sum_comp (ValueIdx.contrEquiv1 DB 512 rfl rfl).symm]
  refine Finset.sum_congr rfl fun d _ => ?_
  have hk := ValueIdx.contrEquiv1_symm_val DB 512 rfl rfl d
  have el : DB.lhsIdx (ix3 b a k) ((ValueIdx.contrEquiv1 DB 512 rfl rfl).symm d) = ix3 b a d := funext fun x => Fin.ext (by
    match x with
    | ⟨0, _⟩ => exact lhsB_0 _ _
    | ⟨1, _⟩ => exact lhsB_1 _ _
    | ⟨2, _⟩ => exact (lhsB_2 _ _).trans hk)
  have er : DB.rhsIdx (ix3 b a k) ((ValueIdx.contrEquiv1 DB 512 rfl rfl).symm d) = ix3 b k d := funext fun x => Fin.ext (by
    match x with
    | ⟨0, _⟩ => exact rhsB_0 _ _
    | ⟨1, _⟩ => exact rhsB_1 _ _
    | ⟨2, _⟩ => exact (rhsB_2 _ _).trans hk)
  rw [el, er]

section Layout
variable {α : Type}

theorem bvec (r : S1x1x512.Idx → α) (h : S1x1x512.Broadcasts S4x300x512) (b : Fin 4) (a : Fin 300) (k : Fin 512) :
    broadcastTo S4x300x512 r h (ix3 b a k) = r (ix3 (0 : Fin 1) (0 : Fin 1) k) :=
  broadcastTo_apply r h _ _ fun x => match x with
    | ⟨0, _⟩ => by show 0 = if (1 : Nat) = 1 then 0 else b.val; rw [if_pos rfl]
    | ⟨1, _⟩ => by show 0 = if (1 : Nat) = 1 then 0 else a.val; rw [if_pos rfl]
    | ⟨2, _⟩ => by show k.val = if (512 : Nat) = 1 then 0 else k.val; rw [if_neg (by decide)]

theorem bcol (w : S4x300x1.Idx → α) (h : S4x300x1.Broadcasts S4x300x512) (b : Fin 4) (a : Fin 300) (k : Fin 512) :
    broadcastTo S4x300x512 w h (ix3 b a k) = w (ix3 b a (0 : Fin 1)) :=
  broadcastTo_apply w h _ _ fun x => match x with
    | ⟨0, _⟩ => by show b.val = if (4 : Nat) = 1 then 0 else b.val; rw [if_neg (by decide)]
    | ⟨1, _⟩ => by show a.val = if (300 : Nat) = 1 then 0 else a.val; rw [if_neg (by decide)]
    | ⟨2, _⟩ => by show 0 = if (1 : Nat) = 1 then 0 else k.val; rw [if_pos rfl]

theorem scKeep (u : S4x300.Idx → α) (h : S4x300.ShapeCasts S4x300x1) (b : Fin 4) (a : Fin 300) (z : Fin 1) :
    shapeCast S4x300x1 u h (ix3 b a z) = u (ix2 b a) :=
  shapeCast_apply u h _ _ (by
    have hz : z.val = 0 := by omega
    rw [Shape.rowMajor_val_three, Shape.rowMajor_val_two]
    show b.val * 300 + a.val = (b.val * 300 + a.val) * 1 + z.val
    omega)

end Layout

theorem mred (v : FVec Ideal S4x300x512 .f32) (hφ : type_of% @k1_pay1._proof_2) (hacc : type_of% @k1_pay1._proof_3) (b : Fin 4) (a : Fin 300) :
    multiReduction .add [2] S4x300 v 0x00000000#32 reduces_S4x300x512_S4x300 hφ hacc (ix2 b a) = ∑ k' : Fin 512, v (ix3 b a k') := by
  refine (Ideal.multiReduction_add_single v 0x00000000#32 reduces_S4x300x512_S4x300 hφ hacc (ix2 b a)).trans ?_
  refine Finset.sum_congr rfl fun k' _ => ?_
  exact congrArg v (funext fun x => Fin.ext (by match x with | ⟨0, _⟩ => rfl | ⟨1, _⟩ => rfl | ⟨2, _⟩ => rfl))

theorem rsqrt_at {s : Shape} (v : FVec Ideal s .f32) (i : s.Idx) : rsqrt v i = Ideal.rsqrt (v i) := rfl
theorem sofb (w : BitVec 32) : (Scalar.ofBits (F := Ideal) .f32 w) = Ideal.ofBits .f32 w := rfl

theorem payB (x0 : Vec Ideal S4x300x512 .f32) (x1 : Vec Ideal S4x512x512 .bf16) (r0 r1 r2 : Vec Ideal S1x512 .f32)
    (b : Fin 4) (a : Fin 300) (k : Fin 512) :
    k1_pay1 (F := Ideal) x0 x1 r0 r1 r2 (ix3 b a k)
      = lnAt cN cEps (fun k' => (∑ d : Fin 512, x0 (ix3 b a d) * x1 (ix3 b k' d)) + r0 (ix2 (0 : Fin 1) k') + x0 (ix3 b a k'))
          (fun k' => r1 (ix2 (0 : Fin 1) k')) (fun k' => r2 (ix2 (0 : Fin 1) k')) k := by
  unfold k1_pay1
  simp only [shapeCast_self, addf_apply, subf_apply, mulf_apply, divf_apply, rsqrt_at, bvec, bcol, scKeep, mmB,
    shapeCast_ab_1ab_apply, broadcast_apply, truncf_apply, sofb]
  rw [mred]
  simp only [shapeCast_self, addf_apply, subf_apply, mulf_apply, divf_apply, rsqrt_at, bvec, bcol, scKeep, mmB,
    shapeCast_ab_1ab_apply, broadcast_apply, truncf_apply, sofb]
  rw [mred]
  try simp only [shapeCast_self, addf_apply, subf_apply, mulf_apply, divf_apply, rsqrt_at, bvec, bcol, scKeep, mmB,
    shapeCast_ab_1ab_apply, broadcast_apply, truncf_apply, sofb]
  try rw [mred]
  try simp only [shapeCast_self, addf_apply, subf_apply, mulf_apply, divf_apply, rsqrt_at, bvec, bcol, scKeep, mmB,
    shapeCast_ab_1ab_apply, broadcast_apply, truncf_apply, sofb]
  rfl

end Cert.KernelIdeal.Val

end
-- ==== Proof.KV_B.lean ====
/-
  What the second pallas_call leaves in its result array, as one function of its three operand arrays as it finds them:
  the specification's `out` of the first feature, the contracted weights and the table's three rows.  Grid point t
  writes examples [4 t, 4 t + 4) from the same examples of the two batched operands; the 8 points' ranges tile the
  array, so after the run the array IS that function.
-/
import proofs.«179774_j36129264894658_2_alg».proof.Proof.KI_Body1
import proofs.«179774_j36129264894658_2_alg».proof.Proof.KV_PayB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen ValueIdx Cert.BilinearNorm

open Cert.KernelIdeal.Hand Idealize.ShloMosaic.Pipeline

/-- Row `r` of the 3 × 512 table as a vector. -/
def rowOf (P : S3x512.Idx → EReal) (r : Fin 3) : SV.Idx → EReal :=
  fun j => P (ix2 r (⟨(j 0).val, (j 0).isLt⟩ : Fin 512))

theorem rowOf_ix1 (P : S3x512.Idx → EReal) (r : Fin 3) (k : Fin 512) : rowOf P r (ix1 k) = P (ix2 r k) := rfl

theorem hz3 : (![0, 0, 0] : Fin 3 → Nat) = fun _ => 0 := funext fun a => by fin_cases a <;> rfl

/-- The index maps over the grid: the three batched blocks move with the point along the examples, the table stays. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

theorem t_lt1 (t : Fin cfg1.N) : t.val < 8 := lt_of_lt_of_eq t.isLt N_1

/-- The normalisation of two rows agrees when the rows, scales and shifts agree entry by entry. -/
theorem lnAt_congr (c e : EReal) (x x' g g' s s' : Fin 512 → EReal) (k : Fin 512)
    (hx : ∀ k', x k' = x' k') (hg : ∀ k', g k' = g' k') (hs : ∀ k', s k' = s' k') :
    lnAt c e x g s k = lnAt c e x' g' s' k := by
  rw [funext hx, funext hg, funext hs]

/-- The block's row before normalisation is the array's, when the block's entries are the array's. -/
theorem xrow_of_block (X0 : Vec Ideal S4x300x512 .f32) (X1 : Vec Ideal S4x512x512 .bf16) (R0 : Vec Ideal S1x512 .f32)
    (A : SA.Idx → EReal) (T : ST.Idx → EReal) (bias : SV.Idx → EReal) (b : Fin 4) (B : Fin 32) (a : Fin 300) (k' : Fin 512)
    (hA : ∀ d : Fin 512, X0 (ix3 b a d) = A (ix3 B a d)) (hT : ∀ d : Fin 512, X1 (ix3 b k' d) = T (ix3 B k' d))
    (hb : R0 (ix2 (0 : Fin 1) k') = bias (ix1 k')) :
    (∑ d : Fin 512, X0 (ix3 b a d) * X1 (ix3 b k' d)) + R0 (ix2 (0 : Fin 1) k') + X0 (ix3 b a k') = xrow A T bias B a k' := by
  unfold xrow
  rw [hb, hA k', Finset.sum_congr rfl fun d _ => by rw [hA d, hT d]]

variable (V : (c : Dev nD) → (b : Ref sig .tc) → Buf (Elt Ideal) ((c : Thread nD τ).loc b))

/-- WHAT POINT `t` WRITES BACK is block `t` of the specification's result of the operand arrays as the region finds them. -/
theorem flushed1_eq (c : Dev nD) (t : Fin cfg1.N) :
    (dat1 V c).flushed 3 t = ((cfg1.win 3).blk t).view.read (Elt Ideal)
      (out (V c main_arg0) (V c main_v5) (rowOf (V c main_v9) 0) (rowOf (V c main_v9) 1) (rowOf (V c main_v9) 2)) := by
  show (cfg1.win 3).cut (grid1.coords t) ((dat1 V c).after 3 t) = _
  rw [after1_3]
  unfold out1_3
  rw [View.canon_unit_zero hz3]
  simp only [View.ld_unit_zero (S := S4x300x512) hz3, View.ld_unit_zero (S := S4x512x512) hz3]
  obtain ⟨e00, e01, e02, e10, e11, e12, e20, e21, e30, e31, e32⟩ := idx_facts1 t
  have ht := t_lt1 t
  funext j
  obtain ⟨b, a, k, rfl⟩ : ∃ (b : Fin 4) (a : Fin 300) (k : Fin 512), j = ix3 b a k := ⟨j 0, j 1, j 2, eq_ix3 j⟩
  have hemb0 : ∀ (a' : Fin 300) (d : Fin 512), ((cfg1.win 0).blk t).view.emb (ix3 b a' d) = (ix3 (⟨4 * t.val + b.val, by omega⟩ : Fin 32) a' d : S32x300x512.Idx) := fun a' d => by
    funext x; apply Fin.ext
    match x with
    | ⟨0, _⟩ => show win1_0.index t (0 : Fin 3) * 4 + 1 * b.val = 4 * t.val + b.val; omega
    | ⟨1, _⟩ => show win1_0.index t (1 : Fin 3) * 300 + 1 * a'.val = a'.val; omega
    | ⟨2, _⟩ => show win1_0.index t (2 : Fin 3) * 512 + 1 * d.val = d.val; omega
  have hemb1 : ∀ (k' d : Fin 512), ((cfg1.win 1).blk t).view.emb (ix3 b k' d) = (ix3 (⟨4 * t.val + b.val, by omega⟩ : Fin 32) k' d : S32x512x512.Idx) := fun k' d => by
    funext x; apply Fin.ext
    match x with
    | ⟨0, _⟩ => show win1_1.index t (0 : Fin 3) * 4 + 1 * b.val = 4 * t.val + b.val; omega
    | ⟨1, _⟩ => show win1_1.index t (1 : Fin 3) * 512 + 1 * k'.val = k'.val; omega
    | ⟨2, _⟩ => show win1_1.index t (2 : Fin 3) * 512 + 1 * d.val = d.val; omega
  have hemb3 : ((cfg1.win 3).blk t).view.emb (ix3 b a k) = (ix3 (⟨4 * t.val + b.val, by omega⟩ : Fin 32) a k : S32x300x512.Idx) := by
    funext x; apply Fin.ext
    match x with
    | ⟨0, _⟩ => show win1_3.index t (0 : Fin 3) * 4 + 1 * b.val = 4 * t.val + b.val; omega
    | ⟨1, _⟩ => show win1_3.index t (1 : Fin 3) * 300 + 1 * a.val = a.val; omega
    | ⟨2, _⟩ => show win1_3.index t (2 : Fin 3) * 512 + 1 * k.val = k.val; omega
  have hrow : ∀ (r : Fin 3) (k' : Fin 512) (i : S3x512.Idx), (i 0).val = r.val → (i 1).val = k'.val →
      ((cfg1.win 2).blk t).view.emb i = (ix2 r k' : S3x512.Idx) := fun r k' i h0 h1 => by
    funext x; apply Fin.ext
    match x with
    | ⟨0, _⟩ => show win1_2.index t (0 : Fin 2) * 3 + 1 * (i 0).val = r.val; omega
    | ⟨1, _⟩ => show win1_2.index t (1 : Fin 2) * 512 + 1 * (i 1).val = k'.val; omega
  refine (payB (iblk1 V c 0 t) (iblk1 V c 1 t) (View.ld (iblk1 V c 2 t) r1_2) (View.ld (iblk1 V c 2 t) r1_3) (View.ld (iblk1 V c 2 t) r1_4) b a k).trans ?_
  show _ = out (V c main_arg0) (V c main_v5) (rowOf (V c main_v9) 0) (rowOf (V c main_v9) 1) (rowOf (V c main_v9) 2) (((cfg1.win 3).blk t).view.emb (ix3 b a k))
  rw [hemb3, out_ix3]
  unfold outAt
  refine lnAt_congr _ _ _ _ _ _ _ _ k (fun k' => ?_) (fun k' => ?_) (fun k' => ?_)
  · refine xrow_of_block (iblk1 V c 0 t) (iblk1 V c 1 t) (View.ld (iblk1 V c 2 t) r1_2) (V c main_arg0) (V c main_v5) (rowOf (V c main_v9) 0)
      b ⟨4 * t.val + b.val, by omega⟩ a k' (fun d => ?_) (fun d => ?_) ?_
    · show V c main_arg0 (((cfg1.win 0).blk t).view.emb (ix3 b a d)) = V c main_arg0 (ix3 (⟨4 * t.val + b.val, by omega⟩ : Fin 32) a d)
      rw [hemb0 a d]
    · show V c main_v5 (((cfg1.win 1).blk t).view.emb (ix3 b k' d)) = V c main_v5 (ix3 (⟨4 * t.val + b.val, by omega⟩ : Fin 32) k' d)
      rw [hemb1 k' d]
    · show V c main_v9 (((cfg1.win 2).blk t).view.emb (r1_2.idx (ix2 (0 : Fin 1) k'))) = V c main_v9 (ix2 (0 : Fin 3) k')
      rw [hrow 0 k' _ rfl (by show (0 : Nat) + 1 * k'.val = k'.val; omega)]
  · show V c main_v9 (((cfg1.win 2).blk t).view.emb (r1_3.idx (ix2 (0 : Fin 1) k'))) = V c main_v9 (ix2 (1 : Fin 3) k')
    rw [hrow 1 k' _ rfl (by show (0 : Nat) + 1 * k'.val = k'.val; omega)]
  · show V c main_v9 (((cfg1.win 2).blk t).view.emb (r1_4.idx (ix2 (0 : Fin 1) k'))) = V c main_v9 (ix2 (2 : Fin 3) k')
    rw [hrow 2 k' _ rfl (by show (0 : Nat) + 1 * k'.val = k'.val; omega)]

/-- An index of the result array is in point `t`'s block iff each coordinate is in the block's range on its axis. -/
theorem mem_blk1 (t : Fin cfg1.N) (i : S32x300x512.Idx) :
    i ∈ ((cfg1.win 3).blk t).view.set ↔ ∀ a : Fin 3, win1_3.index t a * S4x300x512.size a ≤ (i a).val ∧ (i a).val < win1_3.index t a * S4x300x512.size a + S4x300x512.size a := by
  show i ∈ ((View.whole main_v10).slice (win1_3.rect t)).set ↔ _
  rw [View.set_slice_whole, Rect.mem_set_unit]
  exact Iff.rfl

/-- Every example is in the range of the point its index divided by 4 names. -/
theorem cover1 (i : S32x300x512.Idx) : ∃ t : Fin cfg1.N, (cfg1.win 3).flush t = true ∧ i ∈ ((cfg1.win 3).blk t).view.set := by
  have hi0 : (i 0).val < 32 := (i 0).isLt
  have hi1 : (i 1).val < 300 := (i 1).isLt
  have hi2 : (i 2).val < 512 := (i 2).isLt
  let t : Fin cfg1.N := ⟨(i 0).val / 4, lt_of_lt_of_eq (by omega : (i 0).val / 4 < 8) N_1.symm⟩
  obtain ⟨e00, e01, e02, e10, e11, e12, e20, e21, e30, e31, e32⟩ := idx_facts1 t
  have htv : t.val = (i 0).val / 4 := rfl
  refine ⟨t, flush1_3 t, ?_⟩
  rw [mem_blk1]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 300 ≤ (i 1).val ∧ (i 1).val < win1_3.index t (1 : Fin 3) * 300 + 300; omega
  | ⟨2, _⟩ => show win1_3.index t (2 : Fin 3) * 512 ≤ (i 2).val ∧ (i 2).val < win1_3.index t (2 : Fin 3) * 512 + 512; omega

/-- THE RESULT ARRAY after the region: the specification's result of the operand arrays as the region found them. -/
theorem final1 (c : Dev nD) : (dat1 V c).arrAt 3 cfg1.N
    = out (V c main_arg0) (V c main_v5) (rowOf (V c main_v9) 0) (rowOf (V c main_v9) 1) (rowOf (V c main_v9) 2) :=
  (dat1 V c).arrAt_eq_of_cover 3 _ (fun t _ => flushed1_eq V c t) cover1

end Cert.KernelIdeal.Val

end
-- ==== Proof.KV_Final.lean ====
/-
  The host operations around the two pallas_calls, read at an index, and the two regions' results joined:

  * before the first call the pooled matrix is the reference's own pooled stage (the same operations on the same
    argument), and the flattened weights read W2[512 k + d, e] = W[k, d, e];
  * so the first call leaves C[b, 512 k + d] = ∑ₑ pooled[b, e] · W[k, d, e], and un-flattened, T[b, k, d] is the
    reference's own contraction stage at (b, k, d): the two arrays are equal;
  * the 3 × 512 table's rows are the bias, the scale and the shift; the first feature reaches the second call as launched;
  * hence the second call's result array is the specification's `out` of the arguments.
-/
import proofs.«179774_j36129264894658_2_alg».proof.Proof.KI_Run
import proofs.«179774_j36129264894658_2_alg».proof.Proof.KV_A
import proofs.«179774_j36129264894658_2_alg».proof.Proof.KV_B
import proofs.«179774_j36129264894658_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen ValueIdx Cert.BilinearNorm

open Cert.KernelIdeal.Hand Idealize.ShloMosaic.Pipeline Idealize.ShloMosaic.StableHlo

variable (m : (ℓ : Loc nD τ sig) → Buf (Elt Ideal) ℓ) (ρ : Dev nD → PrngReg)

/-! ## Before the first pallas_call -/

/-- The pooled matrix the first call reads is the reference's pooled stage of the second feature. -/
theorem entry_pooled (c : Dev nD) :
    V1 m ρ c main_v2 = Cert.ReferenceIdeal.Read.val_main_v2 (F := Ideal) (m ((c : Thread nD τ).loc main_arg1)) := by
  show StableHlo.after hostOps0 (W0 m ρ c) (Proc.devRef .tc main_v2) = _
  unfold Cert.ReferenceIdeal.Read.val_main_v2 Cert.ReferenceIdeal.Read.val_main_v0 Cert.ReferenceIdeal.Read.val_main_v1
    Cert.ReferenceIdeal.Read.val_main_cst Cert.ReferenceIdeal.Read.val_main_cst_0
  after_results

/-- The flattened weights the first call reads. -/
theorem entry_flat (c : Dev nD) :
    V1 m ρ c main_v3 = shapeCast S262144x512 (m ((c : Thread nD τ).loc main_arg2)) shapeCasts_S512x512x512_S262144x512 := by
  show StableHlo.after hostOps0 (W0 m ρ c) (Proc.devRef .tc main_v3) = _
  after_results
  rfl

/-! ## Between the two pallas_calls -/

/-- The contracted weights the second call reads: the first call's result, un-flattened. -/
theorem entry_unflat (c : Dev nD) :
    V3 m ρ c main_v5 = shapeCast S32x512x512 (W2 m ρ c (Proc.devRef .tc main_v4)) shapeCasts_S32x262144_S32x512x512 := by
  show StableHlo.after hostOps1 (W2 m ρ c) (Proc.devRef .tc main_v5) = _
  after_results
  rfl

/-- An argument the first call does not stage and the first host stretch does not write is as launched after the first call. -/
theorem W2_arg (c : Dev nD) (r : Ref sig .tc) (h2 : ∀ w, Pipeline.arrRef spec0 w ≠ r) (h1 : r ∉ hostOps0_W) :
    W2 m ρ c (Proc.devRef .tc r) = m ((c : Thread nD τ).loc r) :=
  (W2_of_ne m ρ c r h2).trans ((W1_of m ρ c r h1).trans rfl)

/-- The 3 × 512 table the second call reads: the bias, the scale and the shift stacked. -/
theorem entry_table (c : Dev nD) :
    V3 m ρ c main_v9 = concatenate S3x512 0
      [⟨S1x512, broadcastInDim S1x512 ![1] bcast_S512_S1x512_1 (m ((c : Thread nD τ).loc main_arg3))⟩,
       ⟨S1x512, broadcastInDim S1x512 ![1] bcast_S512_S1x512_1 (m ((c : Thread nD τ).loc main_arg4))⟩,
       ⟨S1x512, broadcastInDim S1x512 ![1] bcast_S512_S1x512_1 (m ((c : Thread nD τ).loc main_arg5))⟩]
      concatenates_S1x512_S1x512_S1x512_S3x512_d0 := by
  show StableHlo.after hostOps1 (W2 m ρ c) (Proc.devRef .tc main_v9) = _
  after_results
  simp only [Matrix.cons_val_zero, Matrix.cons_val_one, Matrix.cons_val]
  repeat (first
    | rw [unary_result]
    | (rw [unary_result_ne]; rotate_left; decide)
    | (rw [reshape_result_ne]; rotate_left; decide))
  rw [W2_arg m ρ c main_arg3 (by decide) (by decide), W2_arg m ρ c main_arg4 (by decide) (by decide),
    W2_arg m ρ c main_arg5 (by decide) (by decide)]

/-- The first feature reaches the second call as launched. -/
theorem entry_feature (c : Dev nD) : V3 m ρ c main_arg0 = m ((c : Thread nD τ).loc main_arg0) :=
  (W3_of m ρ c main_arg0 (by decide)).trans (W2_arg m ρ c main_arg0 (by decide) (by decide))

/-! ## The contracted weights are the reference's own contraction -/

theorem lidx3 (b : Fin 32) (k d e : Fin 512) :
    Cert.ReferenceIdeal.Read.lidx_main_v3 (ix3 b k d) e = (ix2 b e : Cert.ReferenceIdeal.S32x512.Idx) :=
  funext fun x => Fin.ext (by match x with | ⟨0, _⟩ => rfl | ⟨1, _⟩ => rfl)
theorem ridx3 (b : Fin 32) (k d e : Fin 512) :
    Cert.ReferenceIdeal.Read.ridx_main_v3 (ix3 b k d) e = (ix3 k d e : Cert.ReferenceIdeal.S512x512x512.Idx) :=
  funext fun x => Fin.ext (by match x with | ⟨0, _⟩ => rfl | ⟨1, _⟩ => rfl | ⟨2, _⟩ => rfl)

/-- Entry (b, k, d) of the un-flattened result of the first call is column 512 k + d of row b, whose weight row is
    W[k, d, ·]: the reference's contraction at (b, k, d). -/
theorem entry_T (c : Dev nD) :
    V3 m ρ c main_v5 = Cert.ReferenceIdeal.Read.val_main_v3 (F := Ideal) (m ((c : Thread nD τ).loc main_arg1)) (m ((c : Thread nD τ).loc main_arg2)) := by
  rw [entry_unflat]
  funext i
  obtain ⟨b, k, d, rfl⟩ : ∃ (b : Fin 32) (k d : Fin 512), i = ix3 b k d := ⟨i 0, i 1, i 2, eq_ix3 i⟩
  have hb : b.val < 32 := b.isLt
  have hk : k.val < 512 := k.isLt
  have hd : d.val < 512 := d.isLt
  have hR : 512 * k.val + d.val < 262144 := by omega
  refine (shapeCast_apply _ _ (ix3 b k d) (ix2 b (⟨512 * k.val + d.val, hR⟩ : Fin 262144)) (by
    rw [Shape.rowMajor_val_two, Shape.rowMajor_val_three]
    show b.val * 262144 + (512 * k.val + d.val) = (b.val * 512 + k.val) * 512 + d.val
    omega)).trans ?_
  rw [show W2 m ρ c (Proc.devRef .tc main_v4) = (dat0 (V1 m ρ) c).arrAt 2 cfg0.N from W2_arr m ρ c 2]
  rw [final0, contr_ix2, entry_pooled, entry_flat, Cert.ReferenceIdeal.Read.val_main_v3_apply]
  show @Eq EReal _ _
  refine Finset.sum_congr rfl fun e _ => ?_
  rw [lidx3, ridx3]
  refine congrArg _ (shapeCast_apply _ _ (ix2 (⟨512 * k.val + d.val, hR⟩ : Fin 262144) e) (ix3 k d e) (by
    rw [Shape.rowMajor_val_two, Shape.rowMajor_val_three]
    show (k.val * 512 + d.val) * 512 + e.val = (512 * k.val + d.val) * 512 + e.val
    omega))

/-! ## The table's rows -/

/-- Row `r` of three stacked one-row arrays is the `r`-th of them, read at its one row. -/
theorem table_row (x0 x1 x2 : S1x512.Idx → EReal) (r : Fin 3) (xr : S1x512.Idx → EReal)
    (hr : ([⟨S1x512, x0⟩, ⟨S1x512, x1⟩, ⟨S1x512, x2⟩] : List ((s : Shape) × (s.Idx → EReal)))[r.val]'(by have := r.isLt; simpa using this) = ⟨S1x512, xr⟩)
    (k : Fin 512) :
    concatenate S3x512 0 [⟨S1x512, x0⟩, ⟨S1x512, x1⟩, ⟨S1x512, x2⟩] concatenates_S1x512_S1x512_S1x512_S3x512_d0 (ix2 r k)
      = xr (ix2 (0 : Fin 1) k) := by
  refine concatenate_apply_piece (0 : Fin 2) _ _ (ix2 r k) r.val (by have := r.isLt; simpa using this) S1x512 xr hr rfl r.val ?_
    (ix2 (0 : Fin 1) k) (fun b hb => ?_) ?_
  · match r with
    | ⟨0, _⟩ => rfl
    | ⟨1, _⟩ => rfl
    | ⟨2, _⟩ => rfl
  · match b with
    | ⟨0, _⟩ => exact absurd rfl hb
    | ⟨1, _⟩ => rfl
  · show r.val + 0 = r.val
    omega

/-- A vector viewed as one row reads its entry. -/
theorem vec_row (x : S512.Idx → EReal) (k : Fin 512) :
    broadcastInDim S1x512 ![1] bcast_S512_S1x512_1 x (ix2 (0 : Fin 1) k) = x (ix1 k) :=
  broadcastInDim_apply _ bcast_S512_S1x512_1 x (ix2 (0 : Fin 1) k) (ix1 k) fun a => match a with
    | ⟨0, _⟩ => by show k.val = if (512 : Nat) = 1 then 0 else k.val; rw [if_neg (by decide)]

theorem row0 (c : Dev nD) : rowOf (V3 m ρ c main_v9) 0 = m ((c : Thread nD τ).loc main_arg3) := by
  rw [entry_table]
  funext j
  obtain ⟨k, rfl⟩ : ∃ k : Fin 512, j = ix1 k := ⟨j 0, eq_ix1 j⟩
  rw [rowOf_ix1]
  exact (table_row _ _ _ 0 _ rfl k).trans (vec_row _ k)
theorem row1 (c : Dev nD) : rowOf (V3 m ρ c main_v9) 1 = m ((c : Thread nD τ).loc main_arg4) := by
  rw [entry_table]
  funext j
  obtain ⟨k, rfl⟩ : ∃ k : Fin 512, j = ix1 k := ⟨j 0, eq_ix1 j⟩
  rw [rowOf_ix1]
  exact (table_row _ _ _ 1 _ rfl k).trans (vec_row _ k)
theorem row2 (c : Dev nD) : rowOf (V3 m ρ c main_v9) 2 = m ((c : Thread nD τ).loc main_arg5) := by
  rw [entry_table]
  funext j
  obtain ⟨k, rfl⟩ : ∃ k : Fin 512, j = ix1 k := ⟨j 0, eq_ix1 j⟩
  rw [rowOf_ix1]
  exact (table_row _ _ _ 2 _ rfl k).trans (vec_row _ k)

/-! ## The kernel's result -/

/-- The second call's result array after the run is the specification's `out` of the arguments, the contraction
    being the reference's own stage. -/
theorem kernel_result (c : Dev nD) : (dat1 (V3 m ρ) c).arrAt 3 cfg1.N
    = out (m ((c : Thread nD τ).loc main_arg0))
        (Cert.ReferenceIdeal.Read.val_main_v3 (F := Ideal) (m ((c : Thread nD τ).loc main_arg1)) (m ((c : Thread nD τ).loc main_arg2)))
        (m ((c : Thread nD τ).loc main_arg3)) (m ((c : Thread nD τ).loc main_arg4)) (m ((c : Thread nD τ).loc main_arg5)) := by
  rw [final1, entry_feature, entry_T, row0, row1, row2]

end Cert.KernelIdeal.Val

end
-- ==== Proof.RefValue.lean ====
/-
  The reference, read index by index: its result array is the specification's `out` of the first feature, of ITS
  contraction of the weights with the pooled second feature (left as the reference's own stage, unopened), and of the
  three vectors.  Each operation after the contraction is read at an index from its operands at an index; the two row
  sums start from the literal zero, which adds nothing.
-/
import proofs.«179774_j36129264894658_2_alg».proof.Proof.Gen.ReferenceIdeal.Read
import proofs.«179774_j36129264894658_2_alg».proof.Proof.Spec

noncomputable section

namespace Cert.ReferenceIdeal.RefValue

open Cert.ReferenceIdeal Cert.ReferenceIdeal.Gen Cert.ReferenceIdeal.Read Idealize.ShloMosaic ValueIdx Cert.BilinearNorm

section Idx
variable (b : Fin 32) (a : Fin 300) (k k' d : Fin 512)

/-! The index maps of the reference's layout operations, at coordinates: a vector broadcast along the last axis
    reads its entry `k`; a per-row quantity kept as a column reads its row `(b, a)`; a row sum runs over `(b, a, ·)`;
    the batched product at `(b, a, k)` pairs `(b, a, d)` with `(b, k, d)`. -/

theorem i6 : idx_main_v6 (ix3 b a k) = (ix3 (0 : Fin 1) (0 : Fin 1) k : S1x1x512.Idx) :=
  funext fun x => Fin.ext (by match x with | ⟨0, _⟩ => rfl | ⟨1, _⟩ => rfl | ⟨2, _⟩ => rfl)
theorem i28 : idx_main_v28 (ix3 b a k) = (ix3 (0 : Fin 1) (0 : Fin 1) k : S1x1x512.Idx) :=
  funext fun x => Fin.ext (by match x with | ⟨0, _⟩ => rfl | ⟨1, _⟩ => rfl | ⟨2, _⟩ => rfl)
theorem i31 : idx_main_v31 (ix3 b a k) = (ix3 (0 : Fin 1) (0 : Fin 1) k : S1x1x512.Idx) :=
  funext fun x => Fin.ext (by match x with | ⟨0, _⟩ => rfl | ⟨1, _⟩ => rfl | ⟨2, _⟩ => rfl)
theorem i5 : idx_main_v5 (ix3 (0 : Fin 1) (0 : Fin 1) k) = (ix1 k : S512.Idx) :=
  funext fun x => Fin.ext (by match x with | ⟨0, _⟩ => rfl)
theorem i27 : idx_main_v27 (ix3 (0 : Fin 1) (0 : Fin 1) k) = (ix1 k : S512.Idx) :=
  funext fun x => Fin.ext (by match x with | ⟨0, _⟩ => rfl)
theorem i30 : idx_main_v30 (ix3 (0 : Fin 1) (0 : Fin 1) k) = (ix1 k : S512.Idx) :=
  funext fun x => Fin.ext (by match x with | ⟨0, _⟩ => rfl)
theorem i13 : idx_main_v13 (ix3 b a k) = (ix3 b a (0 : Fin 1) : S32x300x1.Idx) :=
  funext fun x => Fin.ext (by match x with | ⟨0, _⟩ => rfl | ⟨1, _⟩ => rfl | ⟨2, _⟩ => rfl)
theorem i20 : idx_main_v20 (ix3 b a k) = (ix3 b a (0 : Fin 1) : S32x300x1.Idx) :=
  funext fun x => Fin.ext (by match x with | ⟨0, _⟩ => rfl | ⟨1, _⟩ => rfl | ⟨2, _⟩ => rfl)
theorem i25 : idx_main_v25 (ix3 b a k) = (ix3 b a (0 : Fin 1) : S32x300x1.Idx) :=
  funext fun x => Fin.ext (by match x with | ⟨0, _⟩ => rfl | ⟨1, _⟩ => rfl | ⟨2, _⟩ => rfl)
theorem i10 : idx_main_v10 (ix3 b a (0 : Fin 1)) = (ix2 b a : S32x300.Idx) :=
  funext fun x => Fin.ext (by match x with | ⟨0, _⟩ => rfl | ⟨1, _⟩ => rfl)
theorem i17 : idx_main_v17 (ix3 b a (0 : Fin 1)) = (ix2 b a : S32x300.Idx) :=
  funext fun x => Fin.ext (by match x with | ⟨0, _⟩ => rfl | ⟨1, _⟩ => rfl)
theorem i9 : idx_main_v9 (ix2 b a) k' = (ix3 b a k' : S32x300x512.Idx) :=
  funext fun x => Fin.ext (by match x with | ⟨0, _⟩ => rfl | ⟨1, _⟩ => rfl | ⟨2, _⟩ => rfl)
theorem i16 : idx_main_v16 (ix2 b a) k' = (ix3 b a k' : S32x300x512.Idx) :=
  funext fun x => Fin.ext (by match x with | ⟨0, _⟩ => rfl | ⟨1, _⟩ => rfl | ⟨2, _⟩ => rfl)
theorem i4l : lidx_main_v4 (ix3 b a k) d = (ix3 b a d : S32x300x512.Idx) :=
  funext fun x => Fin.ext (by match x with | ⟨0, _⟩ => rfl | ⟨1, _⟩ => rfl | ⟨2, _⟩ => rfl)
theorem i4r : ridx_main_v4 (ix3 b a k) d = (ix3 b k d : S32x512x512.Idx) :=
  funext fun x => Fin.ext (by match x with | ⟨0, _⟩ => rfl | ⟨1, _⟩ => rfl | ⟨2, _⟩ => rfl)

end Idx

set_option maxHeartbeats 1000000 in
/-- The reference's result at `(b, a, k)` is the specification's, the contraction left as the reference's own stage. -/
theorem result_at (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 x4 x5 : (⟨S512, .f32⟩ : BufTy).Contents (Elt Ideal))
    (b : Fin 32) (a : Fin 300) (k : Fin 512) :
    val_main_v32 (F := Ideal) x0 x1 x2 x3 x4 x5 (ix3 b a k) = outAt x0 (val_main_v3 (F := Ideal) x1 x2) x3 x4 x5 b a k := by
  simp only [val_main_v32_apply, val_main_v31_apply, val_main_v30_apply, val_main_v29_apply, val_main_v28_apply, val_main_v27_apply,
    val_main_v26_apply, val_main_v25_apply, val_main_v24_apply, val_main_v23_apply, val_main_v22_apply, val_main_cst_5_apply,
    val_main_v21_apply, val_main_v20_apply, val_main_v19_apply, val_main_v18_apply, val_main_cst_4_apply, val_main_v17_apply,
    val_main_v16_apply, val_main_cst_3_apply, val_main_v15_apply, val_main_v14_apply, val_main_v13_apply, val_main_v12_apply,
    val_main_v11_apply, val_main_cst_2_apply, val_main_v10_apply, val_main_v9_apply, val_main_cst_1_apply, val_main_v8_apply,
    val_main_v7_apply, val_main_v6_apply, val_main_v5_apply, val_main_v4_apply,
    i6, i28, i31, i5, i27, i30, i13, i20, i25, i10, i17, i9, i16, i4l, i4r,
    Ideal.ofBits_def, Ideal.addf_def, Ideal.subf_def, Ideal.mulf_def, Ideal.hostDivf_def, Ideal.hostUnary_rsqrt_def,
    Ideal.ofBits_zero_f32, zero_add]
  rfl

/-- The reference's result array is the specification's `out`. -/
theorem result_eq (x0 : (⟨S32x300x512, .f32⟩ : BufTy).Contents (Elt Ideal)) (x1 : (⟨S32x1024x512, .f32⟩ : BufTy).Contents (Elt Ideal))
    (x2 : (⟨S512x512x512, .f32⟩ : BufTy).Contents (Elt Ideal)) (x3 x4 x5 : (⟨S512, .f32⟩ : BufTy).Contents (Elt Ideal)) :
    val_main_v32 (F := Ideal) x0 x1 x2 x3 x4 x5 = out x0 (val_main_v3 (F := Ideal) x1 x2) x3 x4 x5 := by
  funext i
  obtain ⟨b, a, k, rfl⟩ : ∃ (b : Fin 32) (a : Fin 300) (k : Fin 512), i = ix3 b a k := ⟨i 0, i 1, i 2, eq_ix3 i⟩
  exact (result_at x0 x1 x2 x3 x4 x5 b a k).trans (out_ix3 _ _ _ _ _ b a k).symm

end Cert.ReferenceIdeal.RefValue

end
-- ==== Proof.lean ====
/-
  Bilinear fusion of two feature sequences followed by a residual and a layer normalisation, computed as two
  pallas_calls, against its plain reference.

  Both programs pool the second feature over its sequence axis, contract the weight tensor with the pooled matrix,
      T[b, k, d] = ∑ₑ pooled[b, e] · W[k, d, e],
  form x[b, a, k] = (∑_d a[b, a, d] · T[b, k, d]) + bias[k] + a[b, a, k], and normalise each row x[b, a, ·] to mean 0
  and variance 1 (the variance shifted by the same literal ε in both), scaled and shifted entry by entry.  The kernel
  flattens the weights to W2[512 k + d, e], computes T in 64 column blocks of 4096, and the rest in 8 blocks of 4
  examples; the reference does each step on whole arrays.  Over the extended reals the roundings to bf16 are the
  identity, a matrix unit's product into a zero accumulator is the plain contraction, and a row sum started from the
  literal zero is the plain sum, so the two results agree entry by entry with every sum taken in the same order: no
  law of arithmetic beyond 0 + x = x is used and the inputs' finiteness is never opened.

  The frames (each program runs to the end, faults nowhere, leaves its arguments unchanged): for the kernel, at the
  word level and idealized, the program is cut into four segments — host operations, first call, host operations,
  second call — and each call's body is run once at a symbolic grid point; for the reference, its run with the
  result dropped.  The ideal pass rewrote nothing, so the kernel's idealization is its own text.
-/
import proofs.«179774_j36129264894658_2_alg».proof.Defs
import proofs.«179774_j36129264894658_2_alg».proof.Proof.Gen.Kernel
import proofs.«179774_j36129264894658_2_alg».proof.Proof.Gen.KernelIdeal
import proofs.«179774_j36129264894658_2_alg».proof.Proof.Gen.ReferenceIdeal
import proofs.«179774_j36129264894658_2_alg».proof.Proof.Gen.Pre_finite_inputs
import proofs.«179774_j36129264894658_2_alg».proof.Proof.Gen.ReferenceIdeal.Run
import proofs.«179774_j36129264894658_2_alg».proof.Proof.Gen.ReferenceIdeal.Read
import proofs.«179774_j36129264894658_2_alg».proof.Proof.K_Run
import proofs.«179774_j36129264894658_2_alg».proof.Proof.KI_Run
import proofs.«179774_j36129264894658_2_alg».proof.Proof.KV_Final
import proofs.«179774_j36129264894658_2_alg».proof.Proof.RefValue
import Idealize.ShloMosaic.Adequacy
import Idealize.ShloMosaic.Init

noncomputable section

namespace Cert.Proof

open Idealize.ShloMosaic Idealize.ShloMosaic.TcCoe Idealize.SL.Sem Cert.BilinearNorm

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification's `out` of the arguments, the
    contraction stated once, as the reference's own stage. -/
theorem algebraic : Cert.algebraic_KernelIdeal_ReferenceIdeal := by
  intro m ρ m' ρ' _ hagree
  refine ⟨fun c => out (m ((c.tc : Thread Cert.KernelIdeal.nD Cert.KernelIdeal.τ).loc Cert.KernelIdeal.main_arg0))
      (Cert.ReferenceIdeal.Read.val_main_v3 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.kernel_result m ρ c), (h c).2⟩)
      (Cert.KernelIdeal.Hand.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
